-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S262144 : Shape := ⟨1, ![262144]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S262144 : S_.BroadcastsInDim S262144 (![] : Fin 0 → Fin S262144.rank)
  reducesTo_S262144_S_d0 : S262144.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8192x128 .f32) (main_arg1 : IVec S2x262144 32) (main_arg2 : FVec F S262144 .f32) (main_arg3 : FVec F S128x128 .f32) (main_arg4 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8192x128 : Shape := ⟨2, ![8192, 128]⟩
abbrev S2x262144 : Shape := ⟨2, ![2, 262144]⟩
abbrev S262144 : Shape := ⟨1, ![262144]⟩
abbrev S128x128 : Shape := ⟨2, ![128, 128]⟩
abbrev S128 : Shape := ⟨1, ![128]⟩
abbrev S1x262144 : Shape := ⟨2, ![1, 262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S8192x8192 : Shape := ⟨2, ![8192, 8192]⟩
abbrev S2048x128 : Shape := ⟨2, ![2048, 128]⟩
abbrev S2048x2048 : Shape := ⟨2, ![2048, 2048]⟩

abbrev nBuf : Space → Nat
  | .hbm => 72
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144, .f32⟩
  | .hbm, ⟨3, _⟩ => ⟨S128x128, .f32⟩
  | .hbm, ⟨4, _⟩ => ⟨S128, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S8192, .i32⟩
  | .hbm, ⟨10, _⟩ => ⟨S270336, .i32⟩
  | .hbm, ⟨11, _⟩ => ⟨S270336, .i32⟩
  | .hbm, ⟨12, _⟩ => ⟨S_, .f32⟩
  | .hbm, ⟨13, _⟩ => ⟨S8192, .f32⟩
  | .hbm, ⟨14, _⟩ => ⟨S270336, .f32⟩
  | .hbm, ⟨15, _⟩ => ⟨S_, .f32⟩
  | .hbm, ⟨16, _⟩ => ⟨S8192, .f32⟩
  | .hbm, ⟨17, _⟩ => ⟨S270336x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .i32⟩
  | .hbm, ⟨28, _⟩ => ⟨S270336, .i32⟩
  | .hbm, ⟨29, _⟩ => ⟨S270336, .i1⟩
  | .hbm, ⟨30, _⟩ => ⟨S_, .i32⟩
  | .hbm, ⟨31, _⟩ => ⟨S270336, .i32⟩
  | .hbm, ⟨32, _⟩ => ⟨S270336, .i32⟩
  | .hbm, ⟨33, _⟩ => ⟨S270336, .i32⟩
  | .hbm, ⟨34, _⟩ => ⟨S270336x1, .i32⟩
  | .hbm, ⟨35, _⟩ => ⟨S270336, .f32⟩
  | .hbm, ⟨36, _⟩ => ⟨S270336, .f32⟩
  | .hbm, ⟨37, _⟩ => ⟨S_, .i32⟩
  | .hbm, ⟨38, _⟩ => ⟨S270336, .i32⟩
  | .hbm, ⟨39, _⟩ => ⟨S270336, .i1⟩
  | .hbm, ⟨40, _⟩ => ⟨S_, .i32⟩
  | .hbm, ⟨41, _⟩ => ⟨S270336, .i32⟩
  | .hbm, ⟨42, _⟩ => ⟨S270336, .i32⟩
  | .hbm, ⟨43, _⟩ => ⟨S270336, .i32⟩
  | .hbm, ⟨44, _⟩ => ⟨S270336x1, .i32⟩
  | .hbm, ⟨45, _⟩ => ⟨S270336, .f32⟩
  | .hbm, ⟨46, _⟩ => ⟨S270336, .f32⟩
  | .hbm, ⟨47, _⟩ => ⟨S8192x128, .f32⟩
  | .hbm, ⟨48, _⟩ => ⟨S270336x1, .f32⟩
  | .hbm, ⟨49, _⟩ => ⟨S_, .i32⟩
  | .hbm, ⟨50, _⟩ => ⟨S270336, .i32⟩
  | .hbm, ⟨51, _⟩ => ⟨S270336, .i1⟩
  | .hbm, ⟨52, _⟩ => ⟨S_, .i32⟩
  | .hbm, ⟨53, _⟩ => ⟨S270336, .i32⟩
  | .hbm, ⟨54, _⟩ => ⟨S270336, .i32⟩
  | .hbm, ⟨55, _⟩ => ⟨S270336, .i32⟩
  | .hbm, ⟨56, _⟩ => ⟨S270336x1, .i32⟩
  | .hbm, ⟨57, _⟩ => ⟨S270336x128, .f32⟩
  | .hbm, ⟨58, _⟩ => ⟨S270336x128, .f32⟩
  | .hbm, ⟨59, _⟩ => ⟨S270336x128, .f32⟩
  | .hbm, ⟨60, _⟩ => ⟨S_, .f32⟩
  | .hbm, ⟨61, _⟩ => ⟨S8192x128, .f32⟩
  | .hbm, ⟨62, _⟩ => ⟨S270336x1, .i32⟩
  | .hbm, ⟨63, _⟩ => ⟨S8192x128, .f32⟩
  | .hbm, ⟨64, _⟩ => ⟨S1x128, .f32⟩
  | .hbm, ⟨65, _⟩ => ⟨S8192x128, .f32⟩
  | .hbm, ⟨66, _⟩ => ⟨S8192x128, .f32⟩
  | .hbm, ⟨67, _⟩ => ⟨S_, .f32⟩
  | .hbm, ⟨68, _⟩ => ⟨S8192x128, .f32⟩
  | .hbm, ⟨69, _⟩ => ⟨S8192x128, .f32⟩
  | .hbm, ⟨70, _⟩ => ⟨S8192x128, .bf16⟩
  | .hbm, ⟨71, _⟩ => ⟨S8192x8192, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x2048, .f32⟩
  | .local _ .vmem, ⟨5, _⟩ => ⟨S2048x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x128_S8192x128_1_0_0_1_n_n_wf : DotDims.WF S8192x128 S128x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .bf16 = 32 ∨ (Rect.block (s := S8192x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_v50) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S2x262144 : Shape := ⟨2, ![2, 262144]⟩
abbrev S262144 : Shape := ⟨1, ![262144]⟩
abbrev S128x128 : Shape := ⟨2, ![128, 128]⟩
abbrev S128 : Shape := ⟨1, ![128]⟩
abbrev S1x262144 : Shape := ⟨2, ![1, 262144]⟩
abbrev S8192 : Shape := ⟨1, ![8192]⟩
abbrev S270336 : Shape := ⟨1, ![270336]⟩
abbrev S_ : Shape := ⟨0, ![]⟩
abbrev S270336x1 : Shape := ⟨2, ![270336, 1]⟩
abbrev S270336x128 : Shape := ⟨2, ![270336, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S262144, .f32⟩
  | .hbm, ⟨3, _⟩ => ⟨S128x128, .f32⟩
  | .hbm, ⟨4, _⟩ => ⟨S128, .f32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S8192, .i32⟩
  | .hbm, ⟨10, _⟩ => ⟨S270336, .i32⟩
  | .hbm, ⟨11, _⟩ => ⟨S270336, .i32⟩
  | .hbm, ⟨12, _⟩ => ⟨S_, .f32⟩
  | .hbm, ⟨13, _⟩ => ⟨S8192, .f32⟩
  | .hbm, ⟨14, _⟩ => ⟨S270336, .f32⟩
  | .hbm, ⟨15, _⟩ => ⟨S_, .f32⟩
  | .hbm, ⟨16, _⟩ => ⟨S8192, .f32⟩
  | .hbm, ⟨17, _⟩ => ⟨S270336x1, .i32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .i1⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .i32⟩
  | .hbm, ⟨28, _⟩ => ⟨S270336, .i32⟩
  | .hbm, ⟨29, _⟩ => ⟨S270336, .i1⟩
  | .hbm, ⟨30, _⟩ => ⟨S_, .i32⟩
  | .hbm, ⟨31, _⟩ => ⟨S270336, .i32⟩
  | .hbm, ⟨32, _⟩ => ⟨S270336, .i32⟩
  | .hbm, ⟨33, _⟩ => ⟨S270336, .i32⟩
  | .hbm, ⟨34, _⟩ => ⟨S270336x1, .i32⟩
  | .hbm, ⟨35, _⟩ => ⟨S270336, .f32⟩
  | .hbm, ⟨36, _⟩ => ⟨S270336, .f32⟩
  | .hbm, ⟨37, _⟩ => ⟨S_, .i32⟩
  | .hbm, ⟨38, _⟩ => ⟨S270336, .i32⟩
  | .hbm, ⟨39, _⟩ => ⟨S270336, .i1⟩
  | .hbm, ⟨40, _⟩ => ⟨S_, .i32⟩
  | .hbm, ⟨41, _⟩ => ⟨S270336, .i32⟩
  | .hbm, ⟨42, _⟩ => ⟨S270336, .i32⟩
  | .hbm, ⟨43, _⟩ => ⟨S270336, .i32⟩
  | .hbm, ⟨44, _⟩ => ⟨S270336x1, .i32⟩
  | .hbm, ⟨45, _⟩ => ⟨S270336, .f32⟩
  | .hbm, ⟨46, _⟩ => ⟨S270336, .f32⟩
  | .hbm, ⟨47, _⟩ => ⟨S8192x128, .f32⟩
  | .hbm, ⟨48, _⟩ => ⟨S270336x1, .f32⟩
  | .hbm, ⟨49, _⟩ => ⟨S_, .i32⟩
  | .hbm, ⟨50, _⟩ => ⟨S270336, .i32⟩
  | .hbm, ⟨51, _⟩ => ⟨S270336, .i1⟩
  | .hbm, ⟨52, _⟩ => ⟨S_, .i32⟩
  | .hbm, ⟨53, _⟩ => ⟨S270336, .i32⟩
  | .hbm, ⟨54, _⟩ => ⟨S270336, .i32⟩
  | .hbm, ⟨55, _⟩ => ⟨S270336, .i32⟩
  | .hbm, ⟨56, _⟩ => ⟨S270336x1, .i32⟩
  | .hbm, ⟨57, _⟩ => ⟨S270336x128, .f32⟩
  | .hbm, ⟨58, _⟩ => ⟨S270336x128, .f32⟩
  | .hbm, ⟨59, _⟩ => ⟨S270336x128, .f32⟩
  | .hbm, ⟨60, _⟩ => ⟨S_, .f32⟩
  | .hbm, ⟨61, _⟩ => ⟨S8192x128, .f32⟩
  | .hbm, ⟨62, _⟩ => ⟨S270336x1, .i32⟩
  | .hbm, ⟨63, _⟩ => ⟨S8192x128, .f32⟩
  | .hbm, ⟨64, _⟩ => ⟨S1x128, .f32⟩
  | .hbm, ⟨65, _⟩ => ⟨S8192x128, .f32⟩
  | .hbm, ⟨66, _⟩ => ⟨S8192x128, .f32⟩
  | .hbm, ⟨67, _⟩ => ⟨S_, .f32⟩
  | .hbm, ⟨68, _⟩ => ⟨S8192x128, .f32⟩
  | .hbm, ⟨69, _⟩ => ⟨S8192x128, .f32⟩
  | .hbm, ⟨70, _⟩ => ⟨S128x8192, .f32⟩
  | .hbm, ⟨71, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  concatenates_S262144_S8192_S270336_d0 : Shape.Concatenates [S262144, S8192] S270336 0
  bcast_S_S8192 : S_.BroadcastsInDim S8192 (![] : Fin 0 → Fin S8192.rank)
  bcast_S270336_S270336x1_0 : S270336.BroadcastsInDim S270336x1 (![0] : Fin 1 → Fin S270336x1.rank)
  bcast_S_S270336 : S_.BroadcastsInDim S270336 (![] : Fin 0 → Fin S270336.rank)
  bcast_S270336x1_S270336x128_0_1 : S270336x1.BroadcastsInDim S270336x128 (![0, 1] : Fin 2 → Fin S270336x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  dot_S8192x128_S128x128_S8192x128_1_0_0_1_n_n_wf : DotDims.WF S8192x128 S128x128 S8192x128 [1] [0] [0] [1] [] []
  gather_S8192x128_S270336x1_S270336x128_1_0_n_n_0_1_1128_wf : GatherDims.WF S8192x128 S270336x1 S270336x128 [1] [0] [] [0] [] 1 ![1, 128]
  scatter_S8192x128_S270336x1_S270336x128_1_0_0_1_wf : ScatterDims.WF S8192x128 S270336x1 S270336x128 [1] [0] [0] 1
  dot_S8192x128_S128x8192_S8192x8192_1_0_0_1_n_n_wf : DotDims.WF S8192x128 S128x8192 S8192x8192 [1] [0] [0] [1] [] []

variable [Facts₀]

def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S8192x128_S270336x1_S270336x128_1_0_n_n_0_1_1128 : GatherDims S8192x128 S270336x1 S270336x128 where
  offsetDims := [1]
  collapsedSliceDims := [0]
  operandBatchingDims := []
  startIndicesBatchingDims := []
  startIndexMap := [0]
  indexVectorDim := 1
  sliceSizes := ![1, 128]
  wf := gather_S8192x128_S270336x1_S270336x128_1_0_n_n_0_1_1128_wf
def scatter_S8192x128_S270336x1_S270336x128_1_0_0_1 : ScatterDims S8192x128 S270336x1 S270336x128 where
  updateWindowDims := [1]
  insertedWindowDims := [0]
  scatterDimsToOperandDims := [0]
  indexVectorDim := 1
  wf := scatter_S8192x128_S270336x1_S270336x128_1_0_0_1_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelRun.lean ====
/-
  The run of `Kernel`'s @main up to and through its one pallas_call, for any float instance `F`.

  @main is sixty-six host operations (the graph convolution: the degree vector by a scatter-add, its guarded
  inverse square root, the per-edge normalisation, the dense product x·W, the gather of its rows, the scatter-add
  of the scaled rows, the bias and the rectifier, and a change of float format) followed by the pallas_call,
  which computes out·outᵀ tile by tile on a 4 × 4 grid: at grid point (i, j) the body loads rows 2048·i … of
  `out` (window 0) and rows 2048·j … of `out` (window 1), multiplies the first by the transpose of the second
  on the matrix unit into a zero accumulator, and stores the 2048 × 2048 product as tile (i, j) of the result
  (window 2).

  Windows 0 and 1 stage the SAME array. Both only read it, so the array's buffer is split between them, each
  window holding one half of the full share; the result's array is held whole. With that split stated, the
  pipeline's launch theorem for windows that share arrays applies, and what is left to say is what the body
  leaves in each staging buffer: the two input blocks as found, and the product of the two blocks in the
  result's buffer.
-/
import proofs.«159101_j26860725469613_1_alg».proof.Proof.Gen.Kernel.Launch
import proofs.«159101_j26860725469613_1_alg».proof.Proof.Gen.Kernel.Skeleton
import proofs.«159101_j26860725469613_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the pallas_call -/

/-- What core `c`'s buffers hold when the pallas_call is entered: the launch contents after the five stretches of
    host operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches of host operations, then the pallas_call: holding the unscoped buffers at the
    launch contents it reaches the pallas_call holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes argument 0: the pallas_call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the pallas_call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the pallas_call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the pallas_call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the pallas_call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the pallas_call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every grid point, fetched there or not
    (not fetched, the block index has not moved since the last fetch), for any proof data whose array is `V`'s
    and whose body leaves the block in place. Window 0: -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The rectangles the body loads and stores through: each the whole staging buffer. -/
abbrev rIn : Rect S2048x128 := Rect.unit (s := S2048x128) ![0, 0] S2048x128.size inb_S2048x128_S2048x128_0_0
abbrev rOut : Rect S2048x2048 := Rect.unit (s := S2048x2048) ![0, 0] S2048x2048.size inb_S2048x2048_S2048x2048_0_0

/-- What the result's staging buffer holds after the body, from the two input blocks: the one store's payload,
    the matrix product of the first block with the transpose of the second, over the whole buffer. -/
def tile (x0 : Vec F S2048x128 .bf16) (x1 : Vec F S2048x128 .bf16) : Vec F S2048x2048 .f32 :=
  View.canon [⟨rOut, k0_pay1 (View.ld x0 rIn) (View.ld x1 rIn)⟩]

/-- The one store covers the buffer. -/
theorem tile_cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging memrefs, the inputs' reading `x0` and `x1` and the result's anything: it runs to its
    return with the inputs' as they were and the result's at `tile x0 x1` (its load of the result's buffer reads a
    value nothing uses). -/
theorem sound_kernel (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x2048 .f32) (harg4 : arg4.IsWhole)
    (x0 : Vec F S2048x128 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The proof data of the pipeline on core `c`: the arrays as the pallas_call finds them; after the body at grid
    point `t` each input's buffer at its block and the result's at the product of the two blocks; no invariant
    (the kernel has no scratch); nothing owed. The array the two input windows share is held by halves: window
    0 the left half of the full share, window 1 the right half; the result's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at grid point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any grid point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- The buffers behind the windows' arrays, each held whole, make the proof data's arrays at entry: the array the
    two input windows share is split into its left and right halves, one per window. -/
theorem hsplit (c : Dev nD) :
    (Pipeline.arrBufs spec0 c (V m c) : sProp 𝕄) ⊢ (dats m 0 c).arrays ((dats m 0 c).arrAt · 0) := by
  classical
  unfold Pipeline.arrBufs Dat.arrays
  rw [bigSep_W0,
    show (Finset.univ.image (Pipeline.arrRef spec0) : Finset (Ref sig .tc)) = insert main_v50 {main_v51} from by decide,
    bigSep_insert (by decide), bigSep_singleton]
  show _ ⊢ iprop(((c.tc : Thread nD τ).loc main_v50 ↦[(Memref.whole main_v50 : Memref sig .tc _ _ _).view.set]{fullShare.left} V m c main_v50)
      ∗ ((c.tc : Thread nD τ).loc main_v50 ↦[(Memref.whole main_v50 : Memref sig .tc _ _ _).view.set]{fullShare.right} V m c main_v50)
      ∗ ((c.tc : Thread nD τ).loc main_v51 ↦[(Memref.whole main_v51 : Memref sig .tc _ _ _).view.set]{fullShare} V m c main_v51))
  rw [(Memref.isWhole_whole main_v50).set_eq_univ, (Memref.isWhole_whole main_v51).set_eq_univ]
  refine (sep_mono_l (pointsTo_share (PosShare.mem_left_op_right fullShare)).1).trans ?_
  first | exact sep_assoc | exact sep_assoc.1

/-- The rounds library's launch element: every staging cell's owner at round 0 and a duty token for every transfer
    the pipeline issues. -/
def u₀ : UR sig nD τ := initOf (Pipeline.cells cfgs cellOf_inj) (Pipeline.launchToks cfgs cellOf_inj)

/-- What a run ends with: every window's array at what the pipeline library computes from the proof data, and every
    other unscoped buffer as the pallas_call found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option maxHeartbeats 4000000 in
set_option backward.isDefEq.respectTransparency.types false in
/-- From any memory with zero counters, every weakly fair execution of @main terminates, nothing faulting, in a state
    satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun c => Pipeline.unscopedRest spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-! ## What a run ends with, read at the program's arguments and result -/

/-- An argument array is unscoped and no window's array, so the pallas_call bypasses it; and no host operation writes
    it: it ends as launched. -/
theorem kept (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of _ rfl (by decide))).trans (V_main_arg0 m c),
   ((h c).2 main_arg1 (Pipeline.mem_restRefs_of _ rfl (by decide))).trans (V_main_arg1 m c),
   ((h c).2 main_arg2 (Pipeline.mem_restRefs_of _ rfl (by decide))).trans (V_main_arg2 m c),
   ((h c).2 main_arg3 (Pipeline.mem_restRefs_of _ rfl (by decide))).trans (V_main_arg3 m c),
   ((h c).2 main_arg4 (Pipeline.mem_restRefs_of _ rfl (by decide))).trans (V_main_arg4 m c)⟩

/-- The result array ends at what the pipeline library computes from the proof data for window 2. -/
theorem post_result (r : PUnit × MemSt nD τ sig (Elt F)) (h : RunPost m r) (c : Dev nD) :
    r.2.mem ((c.tc : Thread nD τ).loc main_v51) = (dats m 0 c).arrAt 2 cfg0.N := (h c).1 2

/-- The frame: @main runs to the end, nothing faulting, and the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept m r h c) (run_main m ρ)

end Cert.Kernel.Run

end
-- ==== Proof.KernelIdealRun.lean ====
/-
  The run of `KernelIdeal`'s @main up to and through its one pallas_call, for any float instance `F`.

  @main is sixty-six host operations (the graph convolution: the degree vector by a scatter-add, its guarded
  inverse square root, the per-edge normalisation, the dense product x·W, the gather of its rows, the scatter-add
  of the scaled rows, the bias and the rectifier, and a change of float format) followed by the pallas_call,
  which computes out·outᵀ tile by tile on a 4 × 4 grid: at grid point (i, j) the body loads rows 2048·i … of
  `out` (window 0) and rows 2048·j … of `out` (window 1), multiplies the first by the transpose of the second
  on the matrix unit into a zero accumulator, and stores the 2048 × 2048 product as tile (i, j) of the result
  (window 2).

  Windows 0 and 1 stage the SAME array. Both only read it, so the array's buffer is split between them, each
  window holding one half of the full share; the result's array is held whole. With that split stated, the
  pipeline's launch theorem for windows that share arrays applies, and what is left to say is what the body
  leaves in each staging buffer: the two input blocks as found, and the product of the two blocks in the
  result's buffer.
-/
import proofs.«159101_j26860725469613_1_alg».proof.Proof.Gen.KernelIdeal.Launch
import proofs.«159101_j26860725469613_1_alg».proof.Proof.Gen.KernelIdeal.Skeleton
import proofs.«159101_j26860725469613_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the pallas_call -/

/-- What core `c`'s buffers hold when the pallas_call is entered: the launch contents after the five stretches of
    host operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches of host operations, then the pallas_call: holding the unscoped buffers at the
    launch contents it reaches the pallas_call holding them at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation writes argument 0: the pallas_call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 1: the pallas_call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 2: the pallas_call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 3: the pallas_call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation writes argument 4: the pallas_call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the pallas_call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every grid point, fetched there or not
    (not fetched, the block index has not moved since the last fetch), for any proof data whose array is `V`'s
    and whose body leaves the block in place. Window 0: -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- and window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The rectangles the body loads and stores through: each the whole staging buffer. -/
abbrev rIn : Rect S2048x128 := Rect.unit (s := S2048x128) ![0, 0] S2048x128.size inb_S2048x128_S2048x128_0_0
abbrev rOut : Rect S2048x2048 := Rect.unit (s := S2048x2048) ![0, 0] S2048x2048.size inb_S2048x2048_S2048x2048_0_0

/-- What the result's staging buffer holds after the body, from the two input blocks: the one store's payload,
    the matrix product of the first block with the transpose of the second, over the whole buffer. -/
def tile (x0 : Vec F S2048x128 .bf16) (x1 : Vec F S2048x128 .bf16) : Vec F S2048x2048 .f32 :=
  View.canon [⟨rOut, k0_pay1 (View.ld x0 rIn) (View.ld x1 rIn)⟩]

/-- The one store covers the buffer. -/
theorem tile_cover (p0 : Vec F S2048x2048 .f32) (y : S2048x2048.Idx) :
    ∃ pc ∈ ([⟨rOut, p0⟩] : List (View.Piece (Elt F) S2048x2048 .f32)), y ∈ pc.1.set :=
  View.cover_of_tiled [⟨rOut, p0⟩] S2048x2048.size (by rfl) y

set_option maxHeartbeats 1000000 in
/-- The body on whole staging memrefs, the inputs' reading `x0` and `x1` and the result's anything: it runs to its
    return with the inputs' as they were and the result's at `tile x0 x1` (its load of the result's buffer reads a
    value nothing uses). -/
theorem sound_kernel (c : Dev nD) (E : Set ℕ) (i : grid0.Coords) (arg2 : Memref sig .tc .vmem S2048x128 .bf16) (harg2 : arg2.IsWhole) (arg3 : Memref sig .tc .vmem S2048x128 .bf16) (harg3 : arg3.IsWhole) (arg4 : Memref sig .tc .vmem S2048x2048 .f32) (harg4 : arg4.IsWhole)
    (x0 : Vec F S2048x128 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tile x0 x1)) -∗ K ⟨⟩))
      ⊢ wp frame (wpE (defs₀ (F := F)) Variants.none c none) E (cc0__outer_kernel i arg2 harg2 arg3 harg3 arg4 harg4) K := by
  simp only [cc0__outer_kernel_eq_skeleton]; unfold cc0__outer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The proof data -/

/-- The proof data of the pipeline on core `c`: the arrays as the pallas_call finds them; after the body at grid
    point `t` each input's buffer at its block and the result's at the product of the two blocks; no invariant
    (the kernel has no scratch); nothing owed. The array the two input windows share is held by halves: window
    0 the left half of the full share, window 1 the right half; the result's array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at grid point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any grid point: the inputs' memrefs hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The launch -/

/-- The buffers behind the windows' arrays, each held whole, make the proof data's arrays at entry: the array the
    two input windows share is split into its left and right halves, one per window. -/
theorem hsplit (c : Dev nD) :
    (Pipeline.arrBufs spec0 c (V m c) : sProp 𝕄) ⊢ (dats m 0 c).arrays ((dats m 0 c).arrAt · 0) := by
  classical
  unfold Pipeline.arrBufs Dat.arrays
  rw [bigSep_W0,
    show (Finset.univ.image (Pipeline.arrRef spec0) : Finset (Ref sig .tc)) = insert main_v50 {main_v51} from by decide,
    bigSep_insert (by decide), bigSep_singleton]
  show _ ⊢ iprop(((c.tc : Thread nD τ).loc main_v50 ↦[(Memref.whole main_v50 : Memref sig .tc _ _ _).view.set]{fullShare.left} V m c main_v50)
      ∗ ((c.tc : Thread nD τ).loc main_v50 ↦[(Memref.whole main_v50 : Memref sig .tc _ _ _).view.set]{fullShare.right} V m c main_v50)
      ∗ ((c.tc : Thread nD τ).loc main_v51 ↦[(Memref.whole main_v51 : Memref sig .tc _ _ _).view.set]{fullShare} V m c main_v51))
  rw [(Memref.isWhole_whole main_v50).set_eq_univ, (Memref.isWhole_whole main_v51).set_eq_univ]
  refine (sep_mono_l (pointsTo_share (PosShare.mem_left_op_right fullShare)).1).trans ?_
  first | exact sep_assoc | exact sep_assoc.1

/-- The rounds library's launch element: every staging cell's owner at round 0 and a duty token for every transfer
    the pipeline issues. -/
def u₀ : UR sig nD τ := initOf (Pipeline.cells cfgs cellOf_inj) (Pipeline.launchToks cfgs cellOf_inj)

/-- What a run ends with: every window's array at what the pipeline library computes from the proof data, and every
    other unscoped buffer as the pallas_call found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option maxHeartbeats 4000000 in
set_option backward.isDefEq.respectTransparency.types false in
/-- From any memory with zero counters, every weakly fair execution of @main terminates, nothing faulting, in a state
    satisfying `RunPost`. -/
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun c => Pipeline.unscopedRest spec0 c (V m c))
    (hX := fun c => by iintro H; isplitr; · iempintro
                       iexact H)
    (hin := fun _ => by rw [scopedRest0_eq]; iintro ⟨-, -⟩; iempintro)
    (hout := fun _ => by rw [scopedRest0_eq]; iintro -; isplitr <;> iempintro)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-! ## What a run ends with, read at the program's arguments and result -/

/-- An argument array is unscoped and no window's array, so the pallas_call bypasses it; and no host operation writes
    it: it ends as launched. -/
theorem kept (r : PUnit × MemSt nD τ sig (Elt F)) (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).2 main_arg0 (Pipeline.mem_restRefs_of _ rfl (by decide))).trans (V_main_arg0 m c),
   ((h c).2 main_arg1 (Pipeline.mem_restRefs_of _ rfl (by decide))).trans (V_main_arg1 m c),
   ((h c).2 main_arg2 (Pipeline.mem_restRefs_of _ rfl (by decide))).trans (V_main_arg2 m c),
   ((h c).2 main_arg3 (Pipeline.mem_restRefs_of _ rfl (by decide))).trans (V_main_arg3 m c),
   ((h c).2 main_arg4 (Pipeline.mem_restRefs_of _ rfl (by decide))).trans (V_main_arg4 m c)⟩

/-- The result array ends at what the pipeline library computes from the proof data for window 2. -/
theorem post_result (r : PUnit × MemSt nD τ sig (Elt F)) (h : RunPost m r) (c : Dev nD) :
    r.2.mem ((c.tc : Thread nD τ).loc main_v51) = (dats m 0 c).arrAt 2 cfg0.N := (h c).1 2

/-- The frame: @main runs to the end, nothing faulting, and the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept m r h c) (run_main m ρ)

end Cert.KernelIdeal.Run

end
-- ==== Proof.KernelIdealHost.lean ====
/-
  The host operations of `KernelIdeal`'s @main, read as one function of the argument arrays.

  Before the pallas_call @main computes, on the host, a graph convolution followed by a rectifier:
  with the edge list extended by one self-loop per node (weight 1), the degree vector is the scatter-add of the
  edge weights at the destinations; its guarded inverse square root `dis` (zero where the degree is not positive)
  gives each edge the normalisation dis[src]·w·dis[dst]; the rows of x·W gathered at the sources are scaled by it
  and scatter-added at the destinations; the bias is added and the maximum with zero taken. `conv` is that
  composition, operation by operation, and `V_conv` says the buffer the sixty-fifth host operation writes holds it
  when the pallas_call is entered. The last host operation only changes the float format of that buffer
  (`V_out`), which on the extended reals is the identity.
-/
import proofs.«159101_j26860725469613_1_alg».proof.Proof.KernelIdealRun
import Idealize.ShloMosaic.Lib.StableHlo.Run

noncomputable section

namespace Cert.KernelIdeal.Host

open Cert.KernelIdeal Cert.KernelIdeal.Gen Cert.KernelIdeal.Run
open Idealize.ShloMosaic Idealize.ShloMosaic.TcCoe Idealize.SL.Sem Idealize.ShloMosaic.StableHlo

variable {F : FTy → Type} [FloatOps F]

set_option maxRecDepth 8192 in
/-- The convolution's output after the rectifier, as the composition of the host operations over the five argument
    arrays: node features `x0`, edge list `x1`, edge weights `x2`, weight matrix `x3`, bias `x4`. -/
def conv (x0 : (⟨S8192x128, .f32⟩ : BufTy).Contents (Elt F)) (x1 : (⟨S2x262144, .i32⟩ : BufTy).Contents (Elt F)) (x2 : (⟨S262144, .f32⟩ : BufTy).Contents (Elt F)) (x3 : (⟨S128x128, .f32⟩ : BufTy).Contents (Elt F)) (x4 : (⟨S128, .f32⟩ : BufTy).Contents (Elt F)) : (⟨S8192x128, .f32⟩ : BufTy).Contents (Elt F) :=
  maximumf (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (mulf (broadcastInDim S270336x128 ![0, 1] bcast_S270336x1_S270336x128_0_1 (broadcastInDim S270336x1 ![0] bcast_S270336_S270336x1_0 (mulf (mulf (Host.gather gather_S8192_S270336x1_S270336_n_0_n_n_0_1_1 (select (cmpf .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0)) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))) (concatenate S270336 0 [⟨S262144, x2⟩, ⟨S8192, (broadcastInDim S8192 ![] bcast_S_S8192 (constant S_ .f32 0x3F800000#32))⟩] concatenates_S262144_S8192_S270336_d0)) (Host.gather gather_S8192_S270336x1_S270336_n_0_n_n_0_1_1 (select (cmpf .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0)) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0))))))) (Host.gather gather_S8192x128_S270336x1_S270336x128_1_0_n_n_0_1_1128 (Host.dotGeneral dot_S8192x128_S128x128_S8192x128_1_0_0_1_n_n none x0 x3) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))))) (broadcastInDim S8192x128 ![0, 1] bcast_S1x128_S8192x128_0_1 (broadcastInDim S1x128 ![1] bcast_S128_S1x128_1 x4))) (broadcastInDim S8192x128 ![] bcast_S_S8192x128 (constant S_ .f32 0x00000000#32))

variable (m : (ℓ : Loc nD τ sig) → Buf (Elt F) ℓ)

set_option maxRecDepth 8192 in
set_option maxHeartbeats 26800000 in
/-- When the pallas_call is entered the rectifier's buffer holds `conv` of the argument arrays as launched. -/
theorem V_conv (c : Dev nD) : V m c main_v49 = conv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  dsimp only [V]
  simp only [hostOps0, hostOps0_1, hostOps0_2, hostOps0_3, hostOps0_4, List.flatten_cons, List.flatten_nil, List.append_nil, List.cons_append, List.nil_append]
  after_results_simp <;> rfl

/-- The last host operation changes the float format of the rectifier's buffer, and writes no other buffer: the array
    the pallas_call stages is the rectifier's output in the narrower format. -/
theorem V_fmt (c : Dev nD) :
    V m c main_v50 = ((truncf .bf16 · bitsLt_bf16_f32) : (⟨S8192x128, .f32⟩ : BufTy).Contents (Elt F) → (⟨S8192x128, .bf16⟩ : BufTy).Contents (Elt F)) (V m c main_v49) := by
  have hcut : (List.flatten [hostOps0, hostOps0_1, hostOps0_2, hostOps0_3, hostOps0_4] : List (HloOp τ sig (Elt F)))
      = List.flatten [hostOps0, hostOps0_1, hostOps0_2, hostOps0_3] ++ hostOps0_4 := by
    simp only [List.flatten_cons, List.flatten_nil, List.append_nil, List.append_assoc]
  dsimp only [V]
  rw [hcut, StableHlo.after_append]
  generalize StableHlo.after (List.flatten [hostOps0, hostOps0_1, hostOps0_2, hostOps0_3]) (fun b => m (c, b)) = W
  simp only [hostOps0_4]
  after_results

end Cert.KernelIdeal.Host

end
-- ==== Proof.LibMatmulLastAxes.lean ====
/-
  A matrix product of two rank-2 arrays that contracts the LAST axis of both operands, read at coordinates.
  For dimension numbers that contract the left operand's second axis against the right operand's second axis, keep the
  left rows and the right rows and have no batch axis (lhs [a, k], rhs [b, k], result [a, b]: lhs · rhsᵀ without a
  transpose), the entry (p, q) of the product is the sum over the contracted position j of lhs (p, j) · rhs (q, j): the
  inner product of row p of the left operand with row q of the right. Both the matrix unit's product into a zero
  accumulator and the host's dot product are that sum on the extended reals.
-/
import Idealize.ShloMosaic.Lib.ValueIdx
import Idealize.ShloMosaic.PureOps.Ideal.Laws

open scoped BigOperators

namespace Cert.LibMatmulLastAxes

open Idealize.ShloMosaic Idealize.ShloMosaic.ValueIdx

variable {a k b : ℕ} (d : DotDims ⟨2, ![a, k]⟩ ⟨2, ![b, k]⟩ ⟨2, ![a, b]⟩)

/-- One contracted axis. -/
theorem contr_rank (hl : d.lhsContracting = [1]) : d.contr.rank = 1 := by
  rw [d.rank_contr, hl]; rfl

/-- Its extent is the shared inner extent k. -/
theorem contr_size (hl : d.lhsContracting = [1]) :
    d.contr.size ⟨0, by rw [contr_rank d hl]; exact Nat.one_pos⟩ = k := by
  rw [d.size_contr 0 (by rw [hl]; exact Nat.one_pos), List.getElem_of_eq hl]
  rfl

/-- The contraction index is its one coordinate. -/
noncomputable def contrEquiv (hl : d.lhsContracting = [1]) : d.contr.Idx ≃ Fin k :=
  contrEquiv1 d k (contr_rank d hl) (contr_size d hl)

/-- The left operand is read at row p, contracted position j. -/
theorem lhsIdx_ix2 (hl : d.lhsContracting = [1]) (hln : d.lhsNonContracting = [0]) (hlb : d.lhsBatch = [])
    (p : Fin a) (q : Fin b) (j : Fin k) :
    d.lhsIdx (ix2 p q) ((contrEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((contrEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((contrEquiv d hl).symm j) (1 : Fin 2)).val = j.val
    rw [d.lhsIdx_val_of_single hl]
    exact contrEquiv1_symm_val d k (contr_rank d hl) (contr_size d hl) j

/-- The right operand is read at row q, contracted position j. -/
theorem rhsIdx_ix2 (hl : d.lhsContracting = [1]) (hr : d.rhsContracting = [1]) (hln : d.lhsNonContracting = [0])
    (hrn : d.rhsNonContracting = [0]) (hlb : d.lhsBatch = []) (hrb : d.rhsBatch = [])
    (p : Fin a) (q : Fin b) (j : Fin k) :
    d.rhsIdx (ix2 p q) ((contrEquiv d hl).symm j) = ix2 q j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_singleton.mpr rfl
    show (d.rhsIdx (ix2 p q) ((contrEquiv d hl).symm j) (0 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])
  | ⟨1, _⟩ =>
    show (d.rhsIdx (ix2 p q) ((contrEquiv d hl).symm j) (1 : Fin 2)).val = j.val
    rw [d.rhsIdx_val_of_single hr]
    exact contrEquiv1_symm_val d k (contr_rank d hl) (contr_size d hl) j

variable {φ₁ φ₂ : FTy}

/-- The matrix unit's product into the zero accumulator, at (p, q). -/
theorem matmul_zero_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (lhs : FVec Ideal ⟨2, ![a, k]⟩ φ₁) (rhs : FVec Ideal ⟨2, ![b, k]⟩ φ₂)
    (p : Fin a) (q : Fin b) :
    FloatOps.matmul d prec lhs rhs (constant ⟨2, ![a, b]⟩ .f32 0x00000000#32) (ix2 p q)
      = ∑ j : Fin k, lhs (ix2 p j) * rhs (ix2 q j) := by
  rw [Ideal.matmul_constant_zero_apply, ← Equiv.sum_comp (contrEquiv d hl).symm]
  refine Finset.sum_congr rfl fun j _ => ?_
  rw [lhsIdx_ix2 d hl hln hlb p q j, rhsIdx_ix2 d hl hr hln hrn hlb hrb p q j]

/-- The host's dot product, at (p, q). -/
theorem dotGeneral_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![a, k]⟩ φ₁) (rhs : FVec Ideal ⟨2, ![b, k]⟩ φ₂)
    (p : Fin a) (q : Fin b) :
    FloatOps.dotGeneral d prec sched lhs rhs (ix2 p q) = ∑ j : Fin k, lhs (ix2 p j) * rhs (ix2 q j) := by
  rw [Ideal.dotGeneral_apply, ← Equiv.sum_comp (contrEquiv d hl).symm]
  refine Finset.sum_congr rfl fun j _ => ?_
  rw [lhsIdx_ix2 d hl hln hlb p q j, rhsIdx_ix2 d hl hr hln hrn hlb hrb p q j]

end Cert.LibMatmulLastAxes
-- ==== Proof.GramSpec.lean ====
/-
  The Gram matrix of the rows of an 8192 × 128 array of extended reals: entry (r, s) is the inner product
  Σ_k X(r, k) · X(s, k) of rows r and s. Both programs of this certificate end with it: the kernel tile by
  tile, as the product of a block of rows with the transpose of another block of rows; the reference as the
  matrix product of the array with its transpose.
-/
import Idealize.ShloMosaic.Lib.ValueIdx
import Idealize.ShloMosaic.PureOps.Ideal

open scoped BigOperators

noncomputable section

namespace Cert.Spec

open Idealize.ShloMosaic Idealize.ShloMosaic.ValueIdx

/-- The inner product of rows `r` and `s`. -/
def rowDot (X : (⟨2, ![8192, 128]⟩ : Shape).Idx → EReal) (r s : Fin 8192) : EReal :=
  ∑ k : Fin 128, X (ix2 r k) * X (ix2 s k)

/-- The Gram matrix X·Xᵀ, index by index. -/
def gram (X : (⟨2, ![8192, 128]⟩ : Shape).Idx → EReal) : (⟨2, ![8192, 8192]⟩ : Shape).Idx → EReal :=
  fun i => rowDot X (i 0) (i 1)

end Cert.Spec

end
-- ==== Proof.KernelIdealGram.lean ====
/-
  What the pallas_call of `KernelIdeal` leaves in the result array, on the extended reals.

  At grid point (i, j) the body multiplies the block of rows 2048·i … 2048·i + 2047 of the staged array X (window 0)
  by the transpose of the block of rows 2048·j … 2048·j + 2047 of the same array (window 1): entry (p, q) of the
  tile is the inner product of row 2048·i + p with row 2048·j + q of X. The tile is written back as block (i, j) of
  the result, so entry (r, s) of what point (i, j) writes is the inner product of rows r and s of X — the (r, s) entry
  of the Gram matrix X·Xᵀ, the same function of X at every grid point. The sixteen blocks tile the 8192 × 8192
  result, so the result array ends holding the Gram matrix of X.
-/
import proofs.«159101_j26860725469613_1_alg».proof.Proof.KernelIdealRun
import proofs.«159101_j26860725469613_1_alg».proof.Proof.LibMatmulLastAxes
import proofs.«159101_j26860725469613_1_alg».proof.Proof.GramSpec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Gram

open Cert.KernelIdeal Cert.KernelIdeal.Gen Cert.KernelIdeal.Run
open Idealize.ShloMosaic Idealize.ShloMosaic.TcCoe Idealize.ShloMosaic.ValueIdx Idealize.SL.Sem
open Idealize.ShloMosaic.Pipeline (Dat)
open Cert.Spec (gram rowDot)

theorem hz : (![0, 0] : Fin 2 → Nat) = fun _ => 0 := funext fun a => by fin_cases a <;> rfl

/-- The tile the body stores, at (p, q): the inner product of row p of the first block with row q of the second. -/
theorem tile_apply (x0 x1 : Vec Ideal S2048x128 .bf16) (p q : Fin 2048) :
    tile x0 x1 (ix2 p q) = ∑ k : Fin 128, x0 (ix2 p k) * x1 (ix2 q k) := by
  unfold tile
  rw [View.canon_unit_zero hz]
  simp only [View.ld_unit_zero (S := S2048x128) hz]
  unfold k0_pay1
  refine (congrFun (congrArg₂ (fun a b => matmul dot_S2048x128_S2048x128_S2048x2048_1_1_0_0_n_n none a b (constant S2048x2048 .f32 0x00000000#32))
    (shapeCast_self x0 _) (shapeCast_self x1 _)) (ix2 p q)).trans ?_
  exact Cert.LibMatmulLastAxes.matmul_zero_rows dot_S2048x128_S2048x128_S2048x2048_1_1_0_0_n_n rfl rfl rfl rfl rfl rfl none x0 x1 p q

variable (m : (ℓ : Loc nD τ sig) → Buf (Elt Ideal) ℓ)

/-- The printed index maps, decided over the sixteen grid points: window 0's block row is the result block's row
    index, window 1's block row is the result block's column index, both input blocks span all 128 columns, and the
    result's block indices are below 4. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 3 :=
  (by decide +kernel : ∀ t : Fin grid0.N, _)

/-- Every block (i, j) of the result is some grid point's. -/
theorem idx_onto : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- What grid point `t` writes back is block `t` of the Gram matrix of the staged array. -/
theorem flushed_eq (c : Dev nD) (t : Fin cfg0.N) :
    (dats m 0 c).flushed 2 t = ((cfg0.win 2).blk t).view.read (Elt Ideal) (gram (V m c main_v50)) := by
  show (cfg0.win 2).cut (grid0.coords t) ((dats m 0 c).after 2 t) = _
  rw [after0_2]
  obtain ⟨e0, e1, e2, e3, e4, e5⟩ := idx_facts t
  funext j
  obtain ⟨p, q, rfl⟩ : ∃ (p q : Fin 2048), j = ix2 p q := ⟨j 0, j 1, eq_ix2 j⟩
  show tile (iblk m c 0 t) (iblk m c 1 t) (ix2 p q) = gram (V m c main_v50) (((cfg0.win 2).blk t).view.emb (ix2 p q))
  refine (tile_apply (iblk m c 0 t) (iblk m c 1 t) p q).trans ?_
  unfold gram rowDot
  refine Finset.sum_congr rfl fun k _ => ?_
  have h0 : iblk m c 0 t (ix2 p k) = V m c main_v50 (ix2 ((((cfg0.win 2).blk t).view.emb (ix2 p q)) 0) k) := by
    show V m c main_v50 (((cfg0.win 0).blk t).view.emb (ix2 p k)) = _
    refine congrArg (V m c main_v50) (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 128 + 1 * k.val = k.val; omega
  have h1 : iblk m c 1 t (ix2 q k) = V m c main_v50 (ix2 ((((cfg0.win 2).blk t).view.emb (ix2 p q)) 1) k) := by
    show V m c main_v50 (((cfg0.win 1).blk t).view.emb (ix2 q k)) = _
    refine congrArg (V m c main_v50) (funext fun a => Fin.ext ?_)
    match a with
    | ⟨0, _⟩ => show win0_1.index t (0 : Fin 2) * 2048 + 1 * q.val = win0_2.index t (1 : Fin 2) * 2048 + 1 * q.val; omega
    | ⟨1, _⟩ => show win0_1.index t (1 : Fin 2) * 128 + 1 * k.val = k.val; omega
  rw [h0, h1]

/-- An index of the result is in grid point `t`'s block iff each coordinate is in the block's range on its axis. -/
theorem mem_blk (t : Fin cfg0.N) (i : S8192x8192.Idx) :
    i ∈ ((cfg0.win 2).blk t).view.set ↔ ∀ a : Fin 2, win0_2.index t a * S2048x2048.size a ≤ (i a).val ∧ (i a).val < win0_2.index t a * S2048x2048.size a + S2048x2048.size a := by
  show i ∈ ((View.whole main_v51).slice (win0_2.rect t)).set ↔ _
  rw [View.set_slice_whole, Rect.mem_set_unit]
  exact Iff.rfl

/-- Every index of the result is in the block of the grid point (row / 2048, column / 2048), which writes back. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 2048 ≤ (i 1).val ∧ (i 1).val < win0_2.index t (1 : Fin 2) * 2048 + 2048; omega

/-- The result array after the run is the Gram matrix of the array the two input windows stage. -/
theorem final (c : Dev nD) : (dats m 0 c).arrAt 2 cfg0.N = gram (V m c main_v50) :=
  (dats m 0 c).arrAt_eq_of_cover 2 (gram (V m c main_v50)) (fun t _ => flushed_eq m c t) cover

end Cert.KernelIdeal.Gram

end
-- ==== Proof.ReferenceIdealGram.lean ====
/-
  The reference's result, on the extended reals, as the Gram matrix of the convolution's output.

  The reference computes the same graph convolution and rectifier on the host (`conv`: the composition of its first
  sixty-five host operations over the five argument arrays), transposes the output and multiplies the output by the
  transpose with one dot product contracting the 128 columns: entry (r, s) of the result is the sum over k of
  out (r, k) · outᵀ (k, s) = out (r, k) · out (s, k), the inner product of rows r and s.
-/
import proofs.«159101_j26860725469613_1_alg».proof.Proof.Gen.ReferenceIdeal.Run
import proofs.«159101_j26860725469613_1_alg».proof.Proof.Gen.ReferenceIdeal.Read
import proofs.«159101_j26860725469613_1_alg».proof.Proof.GramSpec

open scoped BigOperators

noncomputable section

namespace Cert.ReferenceIdeal.Gram

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo
open Cert.Spec (gram rowDot)

variable {F : FTy → Type} [FloatOps F]

set_option maxRecDepth 8192 in
/-- The convolution's output after the rectifier, as the composition of the reference's host operations over the five
    argument arrays: node features `x0`, edge list `x1`, edge weights `x2`, weight matrix `x3`, bias `x4`. -/
def conv (x0 : (⟨S8192x128, .f32⟩ : BufTy).Contents (Elt F)) (x1 : (⟨S2x262144, .i32⟩ : BufTy).Contents (Elt F)) (x2 : (⟨S262144, .f32⟩ : BufTy).Contents (Elt F)) (x3 : (⟨S128x128, .f32⟩ : BufTy).Contents (Elt F)) (x4 : (⟨S128, .f32⟩ : BufTy).Contents (Elt F)) : (⟨S8192x128, .f32⟩ : BufTy).Contents (Elt F) :=
  maximumf (addf (Host.scatterAdd scatter_S8192x128_S270336x1_S270336x128_1_0_0_1 (broadcastInDim S8192x128 ![] bcast_S_S8192x128 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (mulf (broadcastInDim S270336x128 ![0, 1] bcast_S270336x1_S270336x128_0_1 (broadcastInDim S270336x1 ![0] bcast_S270336_S270336x1_0 (mulf (mulf (Host.gather gather_S8192_S270336x1_S270336_n_0_n_n_0_1_1 (select (cmpf .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0)) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))) (concatenate S270336 0 [⟨S262144, x2⟩, ⟨S8192, (broadcastInDim S8192 ![] bcast_S_S8192 (constant S_ .f32 0x3F800000#32))⟩] concatenates_S262144_S8192_S270336_d0)) (Host.gather gather_S8192_S270336x1_S270336_n_0_n_n_0_1_1 (select (cmpf .ogt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0)) (broadcastInDim S8192 ![] bcast_S_S8192 (constant S_ .f32 0x00000000#32))) (Host.rsqrt (Host.scatterAdd scatter_S8192_S270336x1_S270336_n_0_0_1 (broadcastInDim S8192 ![] bcast_S_S8192 (constant S_ .f32 0x00000000#32)) (broadcastInDim S270336x1 ![0] bcast_S270336_S270336x1_0 (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0)) (concatenate S270336 0 [⟨S262144, x2⟩, ⟨S8192, (broadcastInDim S8192 ![] bcast_S_S8192 (constant S_ .f32 0x3F800000#32))⟩] concatenates_S262144_S8192_S270336_d0))) (broadcastInDim S8192 ![] bcast_S_S8192 (id (constant S_ .f32 0x00000000#32)))) (broadcastInDim S270336x1 ![0] bcast_S270336_S270336x1_0 (select (cmpi .slt (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![1, 0] x1 slices_S2x262144_S1x262144_1_0) shapeCasts_S1x262144_S262144)⟩, ⟨S8192, (iotaInDim S8192 32 0)⟩] concatenates_S262144_S8192_S270336_d0))))))) (Host.gather gather_S8192x128_S270336x1_S270336x128_1_0_n_n_0_1_1128 (Host.dotGeneral dot_S8192x128_S128x128_S8192x128_1_0_0_1_n_n none x0 x3) (broadcastInDim S270336x1 ![0] bcast_S270336_S270336x1_0 (select (cmpi .slt (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 0#32))) (addi (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0) (broadcastInDim S270336 ![] bcast_S_S270336 (constantI S_ 32 8192#32))) (concatenate S270336 0 [⟨S262144, (shapeCast _ (extractStridedSlice S1x262144 ![0, 0] x1 slices_S2x262144_S1x262144_0_0) shapeCasts_S1x262144_S262144)⟩, ⟨S8192, (iotaInDim S8192 32 0)⟩] concatenates_S262144_S8192_S270336_d0)))))) (broadcastInDim S8192x128 ![0, 1] bcast_S1x128_S8192x128_0_1 (broadcastInDim S1x128 ![1] bcast_S128_S1x128_1 x4))) (broadcastInDim S8192x128 ![] bcast_S_S8192x128 (constant S_ .f32 0x00000000#32))

set_option maxRecDepth 8192 in
set_option maxHeartbeats 4000000 in
/-- The rectifier's stage, read operation by operation, is that composition. -/
theorem val49_eq (x0 : (⟨S8192x128, .f32⟩ : BufTy).Contents (Elt F)) (x1 : (⟨S2x262144, .i32⟩ : BufTy).Contents (Elt F)) (x2 : (⟨S262144, .f32⟩ : BufTy).Contents (Elt F)) (x3 : (⟨S128x128, .f32⟩ : BufTy).Contents (Elt F)) (x4 : (⟨S128, .f32⟩ : BufTy).Contents (Elt F)) : val_main_v49 (F := F) x0 x1 x2 x3 x4 = conv x0 x1 x2 x3 x4 := by
  unfold conv; rfl

/-- The reference's result is the Gram matrix of the rectifier's output: the dot product's left operand is read at
    (r, k), its right operand — the transpose — at (k, s), which is the output at (s, k). -/
theorem result_eq (x0 : (⟨S8192x128, .f32⟩ : BufTy).Contents (Elt Ideal)) (x1 : (⟨S2x262144, .i32⟩ : BufTy).Contents (Elt Ideal)) (x2 : (⟨S262144, .f32⟩ : BufTy).Contents (Elt Ideal)) (x3 : (⟨S128x128, .f32⟩ : BufTy).Contents (Elt Ideal)) (x4 : (⟨S128, .f32⟩ : BufTy).Contents (Elt Ideal)) :
    val_main_v51 (F := Ideal) x0 x1 x2 x3 x4 = gram (val_main_v49 (F := Ideal) x0 x1 x2 x3 x4) := by
  funext i
  rw [val_main_v51_apply]
  unfold gram rowDot
  refine Finset.sum_congr rfl fun k _ => ?_
  rw [val_main_v50_apply]
  have el : lidx_main_v51 i k = ix2 (i 0) k := funext fun a => match a with | ⟨0, _⟩ => rfl | ⟨1, _⟩ => rfl
  have er : idx_main_v50 (ridx_main_v51 i k) = ix2 (i 1) k := funext fun a => match a with | ⟨0, _⟩ => rfl | ⟨1, _⟩ => rfl
  rw [el, er]
  rfl

end Cert.ReferenceIdeal.Gram

end
-- ==== Proof.lean ====
/-
  The proof of `Cert.Claim`: the frames of `Kernel`, `KernelIdeal` and `ReferenceIdeal`, that `KernelIdeal` is
  `Kernel`'s idealization (the ideal pass rewrote nothing), and that `KernelIdeal` and `ReferenceIdeal` end with
  equal results on the extended reals.

  Both programs compute out = relu(GCNConv(x, edges, weights, W, b)) with the same host operations in the same order
  (`conv`), and then out·outᵀ: the kernel after a change of float format that the extended reals do not see, tile by
  tile on a 4 × 4 grid, each tile the product of a block of 2048 rows with the transpose of another; the reference as
  one dot product of out with its transpose. Entry (r, s) is on both sides the inner product of rows r and s of
  out — `Cert.Spec.gram`. No law of the extended reals beyond the definitions of the two products is used, and the
  precondition is never opened: the sums are the same sums, term by term.

  Proof/KernelRun.lean and Proof/KernelIdealRun.lean hold the two kernels' runs (the same text at the two programs),
  Proof/KernelIdealHost.lean the kernel's host operations as `conv`, Proof/KernelIdealGram.lean the result array as
  the Gram matrix of the staged array, Proof/ReferenceIdealGram.lean the reference's result as the Gram matrix of
  `conv`, Proof/GramSpec.lean the Gram matrix.
-/
import proofs.«159101_j26860725469613_1_alg».proof.Defs
import proofs.«159101_j26860725469613_1_alg».proof.Proof.KernelRun
import proofs.«159101_j26860725469613_1_alg».proof.Proof.KernelIdealRun
import proofs.«159101_j26860725469613_1_alg».proof.Proof.KernelIdealHost
import proofs.«159101_j26860725469613_1_alg».proof.Proof.KernelIdealGram
import proofs.«159101_j26860725469613_1_alg».proof.Proof.ReferenceIdealGram
import proofs.«159101_j26860725469613_1_alg».proof.Proof.Gen.Kernel
import proofs.«159101_j26860725469613_1_alg».proof.Proof.Gen.KernelIdeal
import proofs.«159101_j26860725469613_1_alg».proof.Proof.Gen.ReferenceIdeal
import proofs.«159101_j26860725469613_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

set_option maxRecDepth 8192 in
set_option maxHeartbeats 4000000 in
/-- The two programs' host convolutions are one composition of the same operations over the same shapes. -/
theorem conv_eq (x0 : (⟨Cert.ReferenceIdeal.S8192x128, .f32⟩ : BufTy).Contents (Elt Ideal)) (x1 : (⟨Cert.ReferenceIdeal.S2x262144, .i32⟩ : BufTy).Contents (Elt Ideal)) (x2 : (⟨Cert.ReferenceIdeal.S262144, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) :
    Cert.ReferenceIdeal.Gram.conv (F := Ideal) x0 x1 x2 x3 x4 = Cert.KernelIdeal.Host.conv (F := Ideal) x0 x1 x2 x3 x4 := by
  unfold Cert.ReferenceIdeal.Gram.conv Cert.KernelIdeal.Host.conv; rfl

/-- The array the kernel's two input windows stage is, on the extended reals, the convolution's output: the host's
    last operation only changes the float format. -/
theorem staged (m : (ℓ : Loc Cert.KernelIdeal.nD Cert.KernelIdeal.τ Cert.KernelIdeal.sig) → Buf (Elt Ideal) ℓ) (c : Dev Cert.KernelIdeal.nD) :
    (Cert.KernelIdeal.Run.V m c Cert.KernelIdeal.main_v50 : (⟨2, ![8192, 128]⟩ : Shape).Idx → EReal)
      = Cert.KernelIdeal.Host.conv (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.Host.V_fmt, Cert.KernelIdeal.Host.V_conv]; rfl

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: there is nothing to preserve. -/
theorem preserves : Cert.preserves_Kernel_KernelIdeal := trivial

/-- Both programs end with the Gram matrix of `conv` of the arguments. -/
theorem algebraic : Cert.algebraic_KernelIdeal_ReferenceIdeal := by
  intro m ρ m' ρ' _ hagree
  refine ⟨fun c => Cert.Spec.gram (Cert.KernelIdeal.Host.conv (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · refine (θ_run Cert.KernelIdeal.defs _ _).mono (fun r h c => ⟨?_, Cert.KernelIdeal.Run.kept m r h c⟩) (Cert.KernelIdeal.Run.run_main m ρ)
    exact (Cert.KernelIdeal.Run.post_result m r h c).trans ((Cert.KernelIdeal.Gram.final m c).trans (congrArg Cert.Spec.gram (staged m c)))
  · refine (θ_run Cert.ReferenceIdeal.defs _ _).mono (fun r h c => ⟨(h c).1.trans ?_, (h c).2⟩) (Cert.ReferenceIdeal.Value.run (F := Ideal) m' ρ')
    rw [Cert.ReferenceIdeal.Read.val_main_v51_eq, Cert.ReferenceIdeal.Gram.result_eq, Cert.ReferenceIdeal.Gram.val49_eq, conv_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
